-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x1024 : Shape := ⟨2, ![1024, 1024]⟩
abbrev S4096x1024 : Shape := ⟨2, ![4096, 1024]⟩
abbrev S_ : Shape := ⟨0, ![]⟩

class Facts : Prop where
  bcast_S_S1024x1024 : S_.BroadcastsInDim S1024x1024 (![] : Fin 0 → Fin S1024x1024.rank)
  reducesTo_S1024x1024_S_d0_1 : S1024x1024.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_

variable [Facts]

def fn_part1 {F : FTy → Type} [FloatOps F] (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  main_v18

def fn {F : FTy → Type} [FloatOps F] (main_arg0 : FVec F S1024x1024 .f32) (main_arg1 : FVec F S4096x1024 .f32) (main_arg2 : FVec F S4096x1024 .f32) (main_arg3 : FVec F S4096x1024 .f32) : IVec S_ 1 :=
  let main_v0 : FVec F S1024x1024 .f32 := Host.absf main_arg0
  let main_cst : FVec F S_ .f32 := constant S_ .f32 0x7F800000#32
  let main_v1 : FVec F S1024x1024 .f32 := broadcastInDim S1024x1024 ![] bcast_S_S1024x1024 main_cst
  let main_v2 : IVec S1024x1024 1 := cmpf .olt main_v0 main_v1
  let main_c : IVec S_ 1 := constantI S_ 1 1#1
  let main_v3 : IVec S_ 1 := (fun x v => Host.reduce IntOp.andi x v reducesTo_S1024x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S4096x1024 .f32 := Host.absf main_arg3
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_v13 main_v16
-- ==== Kernel.lean ====
abbrev S1024x1024 : Shape := ⟨2, ![1024, 1024]⟩
abbrev S4096x1024 : Shape := ⟨2, ![4096, 1024]⟩
abbrev S1024x4096 : Shape := ⟨2, ![1024, 4096]⟩
abbrev S512x1024 : Shape := ⟨2, ![512, 1024]⟩
abbrev S1024x512 : Shape := ⟨2, ![1024, 512]⟩
abbrev S512 : Shape := ⟨1, ![512]⟩
abbrev S1x512 : Shape := ⟨2, ![1, 512]⟩

abbrev nBuf : Space → Nat
  | .hbm => 5
  | .vmem => 9
  | .smem => 0
  | _ => 0

abbrev bufTy : (tb : Table) → Fin (tcTables nBuf tb) → BufTy
  | .hbm, ⟨0, _⟩ => ⟨S1024x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S1024x4096, .f32⟩
  | .local _ .vmem, ⟨0, _⟩ => ⟨S1024x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1024x512, .f32⟩
  | .local _ .vmem, ⟨8, _⟩ => ⟨S1024x512, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S1024x1024_S1024x1024_0_0 : ∀ a, (![0, 0] : Fin 2 → Nat) a + S1024x1024.size a ≤ S1024x1024.size a
  h_S1024x1024 : 0 < S1024x1024.numel
  inb_S512x1024_S512x1024_0_0 : ∀ a, (![0, 0] : Fin 2 → Nat) a + S512x1024.size a ≤ S512x1024.size a
  h_S512x1024 : 0 < S512x1024.numel
  reduces_S512x1024_S512 : S512x1024.Reduces [1] S512
  shapeCasts_S512_S1x512 : S512.ShapeCasts S1x512
  broadcasts_S1x512_S1024x512 : S1x512.Broadcasts S1024x512
  bitsLt_bf16_f32 : FTy.bits .bf16 < FTy.bits .f32
  inb_S1024x512_S1024x512_0_0 : ∀ a, (![0, 0] : Fin 2 → Nat) a + S1024x512.size a ≤ S1024x512.size a
  h_S1024x512 : 0 < S1024x512.numel
  dot_S1024x1024_S512x1024_S1024x512_1_1_0_0_n_n_wf : DotDims.WF S1024x1024 S512x1024 S1024x512 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S1024x1024.size a
  hwx0_0 : ∀ i : grid0.Coords, EltTy.bits .f32 = 32 ∨ (Rect.block (s := S1024x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x1024.size a
  hwx0_1 : ∀ i : grid0.Coords, EltTy.bits .f32 = 32 ∨ (Rect.block (s := S4096x1024) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S4096x1024.size a
  hwx0_2 : ∀ i : grid0.Coords, EltTy.bits .f32 = 32 ∨ (Rect.block (s := S4096x1024) S512x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S4096x1024.size a
  hwx0_3 : ∀ i : grid0.Coords, EltTy.bits .f32 = 32 ∨ (Rect.block (s := S4096x1024) S512x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x512.size a ≤ S1024x4096.size a
  hwx0_4 : ∀ i : grid0.Coords, EltTy.bits .f32 = 32 ∨ (Rect.block (s := S1024x4096) S1024x512.size (cc0_transform_4 i) (hinb0_4 i)).WholeWords (EltTy.packing .f32)

variable [Facts₀]

def dot_S1024x1024_S512x1024_S1024x512_1_1_0_0_n_n : DotDims S1024x1024 S512x1024 S1024x512 where
  lhsContracting := [1]
  rhsContracting := [1]
  lhsNonContracting := [0]
  rhsNonContracting := [0]
  lhsBatch := []
  rhsBatch := []
  wf := dot_S1024x1024_S512x1024_S1024x512_1_1_0_0_n_n_wf

abbrev win0_0 : Pipeline.Window sig grid0 :=
  Pipeline.Window.ofSpec (Memref.whole main_arg0) S1024x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1024x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S1024x1024 : Shape := ⟨2, ![1024, 1024]⟩
abbrev S4096x1024 : Shape := ⟨2, ![4096, 1024]⟩
abbrev S_ : Shape := ⟨0, ![]⟩
abbrev S4096 : Shape := ⟨1, ![4096]⟩
abbrev S1024x4096 : Shape := ⟨2, ![1024, 4096]⟩
abbrev S1x4096 : Shape := ⟨2, ![1, 4096]⟩

abbrev nBuf : Space → Nat
  | .hbm => 34
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096, .f32⟩
  | .hbm, ⟨8, _⟩ => ⟨S1024x4096, .f32⟩
  | .hbm, ⟨9, _⟩ => ⟨S1024x4096, .f32⟩
  | .hbm, ⟨10, _⟩ => ⟨S1x4096, .f32⟩
  | .hbm, ⟨11, _⟩ => ⟨S1024x4096, .f32⟩
  | .hbm, ⟨12, _⟩ => ⟨S1024x4096, .f32⟩
  | .hbm, ⟨13, _⟩ => ⟨S4096x1024, .f32⟩
  | .hbm, ⟨14, _⟩ => ⟨S1024x1024, .f32⟩
  | .hbm, ⟨15, _⟩ => ⟨S1024x4096, .f32⟩
  | .hbm, ⟨16, _⟩ => ⟨S1024x4096, .f32⟩
  | .hbm, ⟨17, _⟩ => ⟨S4096x1024, .f32⟩
  | .hbm, ⟨18, _⟩ => ⟨S1024x4096, .f32⟩
  | .hbm, ⟨19, _⟩ => ⟨S1024x4096, .f32⟩
  | .hbm, ⟨20, _⟩ => ⟨S_, .f32⟩
  | .hbm, ⟨21, _⟩ => ⟨S1024x4096, .f32⟩
  | .hbm, ⟨22, _⟩ => ⟨S1024x4096, .f32⟩
  | .hbm, ⟨23, _⟩ => ⟨S1024x4096, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096, .f32⟩
  | .hbm, ⟨28, _⟩ => ⟨S1x4096, .f32⟩
  | .hbm, ⟨29, _⟩ => ⟨S1024x4096, .f32⟩
  | .hbm, ⟨30, _⟩ => ⟨S1024x4096, .f32⟩
  | .hbm, ⟨31, _⟩ => ⟨S1024x4096, .f32⟩
  | .hbm, ⟨32, _⟩ => ⟨S1024x4096, .f32⟩
  | .hbm, ⟨33, _⟩ => ⟨S1024x4096, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_0 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_1 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩

abbrev nD : Nat := 1
abbrev τ : Topo := Topo.v7x

variable {F : FTy → Type} [FloatOps F]

class Facts₀ : Prop where
  reducesTo_S4096x1024_S4096_d1 : S4096x1024.ReducesTo [1] S4096
  h_S_ : 0 < S_.numel
  transposes_S4096x1024_S1024x4096_1_0 : S4096x1024.Transposes [1, 0] S1024x4096
  bcast_S4096_S1x4096_1 : S4096.BroadcastsInDim S1x4096 (![1] : Fin 1 → Fin S1x4096.rank)
  bcast_S1x4096_S1024x4096_0_1 : S1x4096.BroadcastsInDim S1024x4096 (![0, 1] : Fin 2 → Fin S1024x4096.rank)
  bcast_S_S1024x4096 : S_.BroadcastsInDim S1024x4096 (![] : Fin 0 → Fin S1024x4096.rank)
  dot_S1024x1024_S1024x4096_S1024x4096_1_0_0_1_n_n_wf : DotDims.WF S1024x1024 S1024x4096 S1024x4096 [1] [0] [0] [1] [] []

variable [Facts₀]

def dot_S1024x1024_S1024x4096_S1024x4096_1_0_0_1_n_n : DotDims S1024x1024 S1024x4096 S1024x4096 where
  lhsContracting := [1]
  rhsContracting := [0]
  lhsNonContracting := [0]
  rhsNonContracting := [1]
  lhsBatch := []
  rhsBatch := []
  wf := dot_S1024x1024_S1024x4096_S1024x4096_1_0_0_1_n_n_wf

class Facts : Prop extends Facts₀ where

variable [Facts]
-- ==== Proof.Cell.lean ====
/-
  One output element of the layer, as a function of the four rows it depends on.

  The layer sends a batch row `x_b` and the `o`-th rows `w_o`, `c_o`, `s_o` of the weights, the centers and the inverse
  covariances to
      ( <x_b, w_o> - <w_o, c_o> ) * exp( -( <x_b², s_o²> - 2 <x_b, c_o s_o²> + <c_o², s_o²> ) ),
  every product and sum taken on the extended reals.  The element at `(b, o)` reads row `b` of `x` and row `o` of each of the
  other three arrays and nothing else, so a tile of the output over a range of `o` is computed from the same range of rows.
-/
import Idealize.ShloMosaic.PureOps.Ideal
import Idealize.ShloMosaic.Lib.ValueIdx

noncomputable section

namespace Cert.Fgn

open Idealize.ShloMosaic Idealize.ShloMosaic.ValueIdx

/-- The literal `2.0` as its word: both programs carry the same word, and it is never evaluated. -/
def two : EReal := Ideal.ofBits .f32 0x40000000#32

/-- The linear part with its bias: `<x, w> - <w, c>`. -/
def linear (xr wr cr : Fin 1024 → EReal) : EReal :=
  (∑ k, xr k * wr k) + -(∑ k, wr k * cr k)

/-- The diagonal Mahalanobis term, expanded: `<x², s²> - 2 <x, c s²> + <c², s²>`. -/
def gate (xr cr sr : Fin 1024 → EReal) : EReal :=
  ((∑ k, (xr k * xr k) * (sr k * sr k)) - two * ∑ k, xr k * (cr k * (sr k * sr k))) + ∑ k, (cr k * cr k) * (sr k * sr k)

/-- One output element from its four rows. -/
def cell (xr wr cr sr : Fin 1024 → EReal) : EReal :=
  linear xr wr cr * Ideal.exp (-(gate xr cr sr))

/-- The whole output: element `(b, o)` is `cell` of row `b` of `x` and rows `o` of `w`, `c`, `s`. -/
def G (x : (⟨2, ![1024, 1024]⟩ : Shape).Idx → EReal) (w c s : (⟨2, ![4096, 1024]⟩ : Shape).Idx → EReal) :
    (⟨2, ![1024, 4096]⟩ : Shape).Idx → EReal :=
  fun i => cell (fun k => x (ix2 (i 0 : Fin 1024) k)) (fun k => w (ix2 (i 1 : Fin 4096) k))
    (fun k => c (ix2 (i 1 : Fin 4096) k)) (fun k => s (ix2 (i 1 : Fin 4096) k))

theorem G_apply (x : (⟨2, ![1024, 1024]⟩ : Shape).Idx → EReal) (w c s : (⟨2, ![4096, 1024]⟩ : Shape).Idx → EReal)
    (b : Fin 1024) (o : Fin 4096) :
    G x w c s (ix2 b o) = cell (fun k => x (ix2 b k)) (fun k => w (ix2 o k)) (fun k => c (ix2 o k)) (fun k => s (ix2 o k)) := rfl

end Cert.Fgn

end
-- ==== Proof.LibKeepdims.lean ====
/-
  General lemmas: the "keepdims" column forms read at an index given by coordinates.

  A reduction over the last axis of an `[a, b]` array leaves one value per row, an `[a]` vector; to combine it with the
  array again it is viewed as a column `[a, 1]` and the column is broadcast along the rows to `[a, b]`.  Read at
  `(i, j)`, the column view is the vector at `i` and the broadcast column is the column at `(i, 0)`: so the two together
  read the vector at the ROW coordinate, whatever the column coordinate.
-/
import Idealize.ShloMosaic.Lib.Pipeline.Value
import Idealize.ShloMosaic.Lib.ValueIdx

namespace Cert.LibKeepdims

open Idealize.ShloMosaic Idealize.ShloMosaic.ValueIdx

variable {α : Type}

/-- An `[a]` vector viewed as a column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast along the rows to `[a, b]` reads, at `(i, j)`, the column at `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- Together: a per-row vector, viewed as a column and broadcast along the rows, reads at `(i, j)` the vector at `i`. -/
theorem keepdims_apply {a b : ℕ} (x : (⟨1, ![a]⟩ : Shape).Idx → α) (h1 : (⟨1, ![a]⟩ : Shape).ShapeCasts ⟨2, ![a, 1]⟩)
    (h2 : (⟨2, ![a, 1]⟩ : Shape).Broadcasts ⟨2, ![a, b]⟩) (i : Fin a) (j : Fin b) :
    broadcastTo ⟨2, ![a, b]⟩ (shapeCast ⟨2, ![a, 1]⟩ x h1) h2 (ix2 i j) = x (ix1 i) :=
  (broadcastTo_a1_ab_apply _ h2 i j).trans (shapeCast_a_a1_apply x h1 i 0)

/-- The row form beside it: a vector `[b]` viewed as one row `[1, b]` and broadcast over `a` rows reads at `(i, j)` the
    vector at the COLUMN coordinate `j` (a bias added to every row). -/
theorem rowdims_apply {a b : ℕ} (x : (⟨1, ![b]⟩ : Shape).Idx → α) (h1 : (⟨1, ![b]⟩ : Shape).ShapeCasts ⟨2, ![1, b]⟩)
    (h2 : (⟨2, ![1, b]⟩ : Shape).Broadcasts ⟨2, ![a, b]⟩) (i : Fin a) (j : Fin b) :
    broadcastTo ⟨2, ![a, b]⟩ (shapeCast ⟨2, ![1, b]⟩ x h1) h2 (ix2 i j) = x (ix1 j) := by
  refine (broadcastTo_apply _ h2 (ix2 i j) (ix2 (0 : Fin 1) j) fun ax => ?_).trans ?_
  · match ax with
    | ⟨0, _⟩ => rfl
    | ⟨1, _⟩ =>
      show j.val = if b = 1 then 0 else j.val
      split
      · have := j.isLt; omega
      · rfl
  · exact shapeCast_apply x h1 _ _ (by
      rw [Shape.rowMajor_val_two, Shape.rowMajor_val_one]
      show j.val = 0 * b + j.val
      rw [Nat.zero_mul, Nat.zero_add])

end Cert.LibKeepdims
-- ==== Proof.BodyAt.lean ====
/-
  What the tile body computes, read at one element.

  The body works on the whole of `x` and on a tile of 512 rows of each of the weights, the centers and the inverse covariances,
  and stores a `1024 × 512` tile.  Its three matrix products contract the last axis of both operands, so the element at
  `(p, q)` of each is a sum over `k` of a row-`p` entry of the left operand times a row-`q` entry of the right one; the two
  row sums over the tile's rows are viewed as one row and repeated down the 1024 rows, so at `(p, q)` they read the sum of tile
  row `q`.  Everything else is pointwise.  Hence the stored element at `(p, q)` is `Fgn.cell` of row `p` of `x` and rows `q` of
  the three tiles.  The only arithmetic fact used is `0 - a = -a` on the extended reals (the body negates by subtracting from zero).
-/
import proofs.«146211_j47622597378049_2_alg».proof.Proof.Gen.KernelIdeal.Skeleton
import proofs.«146211_j47622597378049_2_alg».proof.Proof.Cell
import proofs.«146211_j47622597378049_2_alg».proof.Proof.LibKeepdims
import Idealize.ShloMosaic.PureOps.Ideal.Laws
import Idealize.ShloMosaic.Lib.ValueIdx
import Idealize.ShloMosaic.Lib.Pipeline.Value

noncomputable section

namespace Cert.KernelIdeal.Body

open Cert.KernelIdeal Cert.KernelIdeal.Gen Idealize.ShloMosaic Idealize.ShloMosaic.ValueIdx Cert.Fgn

/-- The exponential on vectors is pointwise. -/
theorem exp_apply {s : Shape} {φ : FTy} (a : FVec Ideal s φ) (i : s.Idx) : exp a i = Ideal.exp (a i) := rfl

/-- A row sum of a `512 × 1024` tile at row `q`: the sum over `k` of the tile at `(q, k)`. -/
theorem rowsum_at (v : FVec Ideal S512x1024 .f32) (h : S512x1024.Reduces [1] S512) (hφ : FKind.Formats .f32)
    (hacc : (0x00000000#32 : BitVec 32) = 0x00000000#32) (q : Fin 512) :
    multiReduction .add [1] S512 v 0x00000000#32 h hφ hacc (ix1 q) = ∑ k : Fin 1024, v (ix2 q k) := by
  refine (Ideal.multiReduction_add_single v 0x00000000#32 h hφ hacc (ix1 q)).trans ?_
  exact Finset.sum_congr rfl fun k _ => congrArg v (funext fun a => Fin.ext (by
    match a with
    | ⟨0, _⟩ => rfl
    | ⟨1, _⟩ => rfl))

theorem lhs_row (i : S1024x512.Idx) (k : dot_S1024x1024_S512x1024_S1024x512_1_1_0_0_n_n.contr.Idx) :
    (dot_S1024x1024_S512x1024_S1024x512_1_1_0_0_n_n.lhsIdx i k 0).val = (i 0).val := by
  unfold DotDims.lhsIdx
  rw [dif_neg (show ¬(0 : Fin S1024x1024.rank) ∈ dot_S1024x1024_S512x1024_S1024x512_1_1_0_0_n_n.lhsBatch by decide),
    dif_pos (show (0 : Fin S1024x1024.rank) ∈ dot_S1024x1024_S512x1024_S1024x512_1_1_0_0_n_n.lhsNonContracting by decide)]
  rfl

theorem rhs_row (i : S1024x512.Idx) (k : dot_S1024x1024_S512x1024_S1024x512_1_1_0_0_n_n.contr.Idx) :
    (dot_S1024x1024_S512x1024_S1024x512_1_1_0_0_n_n.rhsIdx i k 0).val = (i 1).val := by
  unfold DotDims.rhsIdx
  rw [dif_neg (show ¬(0 : Fin S512x1024.rank) ∈ dot_S1024x1024_S512x1024_S1024x512_1_1_0_0_n_n.rhsBatch by decide),
    dif_pos (show (0 : Fin S512x1024.rank) ∈ dot_S1024x1024_S512x1024_S1024x512_1_1_0_0_n_n.rhsNonContracting by decide)]
  rfl

/-- A product of a `1024 × 1024` matrix with the transpose of a `512 × 1024` tile, into the zero accumulator, at `(p, q)`:
    the sum over `k` of the left operand at `(p, k)` times the tile at `(q, k)` — whatever the operands' formats and the
    requested precision. -/
theorem matmul_at {φ₁ φ₂ : FTy} (prec : Option ContractPrecision) (a : FVec Ideal S1024x1024 φ₁) (b : FVec Ideal S512x1024 φ₂)
    (p : Fin 1024) (q : Fin 512) :
    matmul dot_S1024x1024_S512x1024_S1024x512_1_1_0_0_n_n prec a b (constant S1024x512 .f32 0x00000000#32) (ix2 p q)
      = ∑ k : Fin 1024, a (ix2 p k) * b (ix2 q k) := by
  simp only [matmul]
  rw [Ideal.matmul_constant_zero_apply,
    ← Equiv.sum_comp (ValueIdx.contrEquiv1 dot_S1024x1024_S512x1024_S1024x512_1_1_0_0_n_n 1024 rfl rfl).symm]
  refine Finset.sum_congr rfl fun k _ => ?_
  have hk := ValueIdx.contrEquiv1_symm_val dot_S1024x1024_S512x1024_S1024x512_1_1_0_0_n_n 1024 rfl rfl k
  have el : dot_S1024x1024_S512x1024_S1024x512_1_1_0_0_n_n.lhsIdx (ix2 p q)
      ((ValueIdx.contrEquiv1 dot_S1024x1024_S512x1024_S1024x512_1_1_0_0_n_n 1024 rfl rfl).symm k) = ix2 p k :=
    funext fun a => Fin.ext (by
      match a with
      | ⟨0, _⟩ => exact lhs_row _ _
      | ⟨1, _⟩ => exact (dot_S1024x1024_S512x1024_S1024x512_1_1_0_0_n_n.lhsIdx_val_of_single rfl _ _).trans hk)
  have er : dot_S1024x1024_S512x1024_S1024x512_1_1_0_0_n_n.rhsIdx (ix2 p q)
      ((ValueIdx.contrEquiv1 dot_S1024x1024_S512x1024_S1024x512_1_1_0_0_n_n 1024 rfl rfl).symm k) = ix2 q k :=
    funext fun a => Fin.ext (by
      match a with
      | ⟨0, _⟩ => exact rhs_row _ _
      | ⟨1, _⟩ => exact (dot_S1024x1024_S512x1024_S1024x512_1_1_0_0_n_n.rhsIdx_val_of_single rfl _ _).trans hk)
  rw [el, er]

/-- The stored tile at `(p, q)` is `cell` of row `p` of `x` and rows `q` of the three tiles. -/
theorem pay_apply (x0 : Vec Ideal S1024x1024 .f32) (x1 x2 x3 : Vec Ideal S512x1024 .f32) (p : Fin 1024) (q : Fin 512) :
    k0_pay1 (F := Ideal) x0 x1 x2 x3 (ix2 p q)
      = cell (fun k => x0 (ix2 p k)) (fun k => x1 (ix2 q k)) (fun k => x2 (ix2 q k)) (fun k => x3 (ix2 q k)) := by
  unfold k0_pay1
  simp only [mulf_apply, addf_apply, subf_apply, exp_apply, broadcast_apply]
  rw [matmul_at, matmul_at, matmul_at, Cert.LibKeepdims.rowdims_apply, Cert.LibKeepdims.rowdims_apply]
  simp only [subf_apply, broadcast_apply, mulf_apply, truncf_apply]
  rw [rowsum_at, rowsum_at]
  simp only [mulf_apply, Ideal.ofBits_def, Ideal.ofBits_zero_f32, zero_sub]
  rfl

end Cert.KernelIdeal.Body

end
-- ==== Proof.KernelValue.lean ====
/-
  From tiles to the whole output.

  The grid has eight points; point `t` sees all of `x`, rows `512 t … 512 t + 511` of the weights, the centers and the inverse
  covariances, and writes columns `512 t … 512 t + 511` of the output.  An element `(p, q)` of the tile written at point `t` is
  therefore the output element `(p, 512 t + q)`, and it is computed from row `p` of `x` and row `q` of each tile, which is row
  `512 t + q` of the corresponding array: exactly the rows `Fgn.G` reads at `(p, 512 t + q)`.  Every output column lies in the
  tile of the point `column / 512`, so the eight tiles fill the array and it ends holding `Fgn.G` of the argument arrays.
-/
import proofs.«146211_j47622597378049_2_alg».proof.Proof.Gen.KernelIdeal.Value
import proofs.«146211_j47622597378049_2_alg».proof.Proof.BodyAt
import proofs.«146211_j47622597378049_2_alg».proof.Proof.Cell
import Idealize.ShloMosaic.Lib.Pipeline.Value

noncomputable section

namespace Cert.KernelIdeal.Tiles

open Cert.KernelIdeal Cert.KernelIdeal.Gen Idealize.ShloMosaic Idealize.ShloMosaic.TcCoe Idealize.SL.Sem
open Idealize.ShloMosaic.ValueIdx Cert.Fgn
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- Where each window's block sits at point `t`: `x` whole, the three row tiles at block row `t`, the output at block column `t`
    (decided over the eight points). -/
theorem idx_facts : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = 0 ∧ win0_4.index t (1 : Fin 2) = t.val :=
  (by decide +kernel : ∀ t : Fin grid0.N, _)

/-- One tile element from its rows: if row `y 0` of the `x` block is row `i 0` of an array `A0` and rows `y 1` of the three tiles
    are rows `i 1` of arrays `A1`, `A2`, `A3`, the body's result at `y` is `G A0 A1 A2 A3` at `i`. -/
theorem tile_apply (x0 : Vec Ideal S1024x1024 .f32) (x1 x2 x3 : Vec Ideal S512x1024 .f32)
    (A0 : S1024x1024.Idx → EReal) (A1 A2 A3 : S4096x1024.Idx → EReal) (y : S1024x512.Idx) (i : S1024x4096.Idx)
    (h0 : ∀ k : Fin 1024, x0 (ix2 (y 0 : Fin 1024) k) = A0 (ix2 (i 0 : Fin 1024) k))
    (h1 : ∀ k : Fin 1024, x1 (ix2 (y 1 : Fin 512) k) = A1 (ix2 (i 1 : Fin 4096) k))
    (h2 : ∀ k : Fin 1024, x2 (ix2 (y 1 : Fin 512) k) = A2 (ix2 (i 1 : Fin 4096) k))
    (h3 : ∀ k : Fin 1024, x3 (ix2 (y 1 : Fin 512) k) = A3 (ix2 (i 1 : Fin 4096) k)) :
    k0_pay1 (F := Ideal) x0 x1 x2 x3 y = G A0 A1 A2 A3 i := by
  obtain ⟨p, q, rfl⟩ : ∃ (p : Fin 1024) (q : Fin 512), y = ix2 p q := ⟨y 0, y 1, eq_ix2 y⟩
  obtain ⟨b, o, rfl⟩ : ∃ (b : Fin 1024) (o : Fin 4096), i = ix2 b o := ⟨i 0, i 1, eq_ix2 i⟩
  have e0 : (fun k => x0 (ix2 p k)) = fun k => A0 (ix2 b k) := funext h0
  have e1 : (fun k => x1 (ix2 q k)) = fun k => A1 (ix2 o k) := funext h1
  have e2 : (fun k => x2 (ix2 q k)) = fun k => A2 (ix2 o k) := funext h2
  have e3 : (fun k => x3 (ix2 q k)) = fun k => A3 (ix2 o k) := funext h3
  rw [Body.pay_apply, G_apply, e0, e1, e2, e3]

/-- The `x` window's block at any point is `x` itself. -/
theorem iblk0_apply (c : Dev nD) (t : Fin cfg0.N) (y : S1024x1024.Idx) (k : S1024x1024.Idx)
    (hk0 : (k 0).val = (y 0).val) (hk1 : (k 1).val = (y 1).val) :
    (iblk m c 0 t : Vec Ideal S1024x1024 .f32) y = (V m c main_arg0 : S1024x1024.Idx → EReal) k := by
  obtain ⟨e00, e01, -⟩ := idx_facts t
  unfold iblk
  rw [View.read_apply]
  show V m c main_arg0 _ = V m c main_arg0 _
  congr 1
  funext a
  apply Fin.ext
  match a with
  | ⟨0, _⟩ => show win0_0.index t 0 * 1024 + 1 * (y 0).val = (k 0).val; rw [e00, hk0]; omega
  | ⟨1, _⟩ => show win0_0.index t 1 * 1024 + 1 * (y 1).val = (k 1).val; rw [e01, hk1]; omega

/-- The weights window's block at point `t` is rows `512 t …` of the weights. -/
theorem iblk1_apply (c : Dev nD) (t : Fin cfg0.N) (y : S512x1024.Idx) (k : S4096x1024.Idx)
    (hk0 : (k 0).val = 512 * t.val + (y 0).val) (hk1 : (k 1).val = (y 1).val) :
    (iblk m c 1 t : Vec Ideal S512x1024 .f32) y = (V m c main_arg1 : S4096x1024.Idx → EReal) k := by
  obtain ⟨-, -, e10, e11, -⟩ := idx_facts t
  unfold iblk
  rw [View.read_apply]
  show V m c main_arg1 _ = V m c main_arg1 _
  congr 1
  funext a
  apply Fin.ext
  match a with
  | ⟨0, _⟩ => show win0_1.index t 0 * 512 + 1 * (y 0).val = (k 0).val; rw [e10, hk0]; omega
  | ⟨1, _⟩ => show win0_1.index t 1 * 1024 + 1 * (y 1).val = (k 1).val; rw [e11, hk1]; omega

/-- The centers window's block at point `t` is rows `512 t …` of the centers. -/
theorem iblk2_apply (c : Dev nD) (t : Fin cfg0.N) (y : S512x1024.Idx) (k : S4096x1024.Idx)
    (hk0 : (k 0).val = 512 * t.val + (y 0).val) (hk1 : (k 1).val = (y 1).val) :
    (iblk m c 2 t : Vec Ideal S512x1024 .f32) y = (V m c main_arg2 : S4096x1024.Idx → EReal) k := by
  obtain ⟨-, -, -, -, e20, e21, -⟩ := idx_facts t
  unfold iblk
  rw [View.read_apply]
  show V m c main_arg2 _ = V m c main_arg2 _
  congr 1
  funext a
  apply Fin.ext
  match a with
  | ⟨0, _⟩ => show win0_2.index t 0 * 512 + 1 * (y 0).val = (k 0).val; rw [e20, hk0]; omega
  | ⟨1, _⟩ => show win0_2.index t 1 * 1024 + 1 * (y 1).val = (k 1).val; rw [e21, hk1]; omega

/-- The inverse-covariance window's block at point `t` is rows `512 t …` of that array. -/
theorem iblk3_apply (c : Dev nD) (t : Fin cfg0.N) (y : S512x1024.Idx) (k : S4096x1024.Idx)
    (hk0 : (k 0).val = 512 * t.val + (y 0).val) (hk1 : (k 1).val = (y 1).val) :
    (iblk m c 3 t : Vec Ideal S512x1024 .f32) y = (V m c main_arg3 : S4096x1024.Idx → EReal) k := by
  obtain ⟨-, -, -, -, -, -, e30, e31, -⟩ := idx_facts t
  unfold iblk
  rw [View.read_apply]
  show V m c main_arg3 _ = V m c main_arg3 _
  congr 1
  funext a
  apply Fin.ext
  match a with
  | ⟨0, _⟩ => show win0_3.index t 0 * 512 + 1 * (y 0).val = (k 0).val; rw [e30, hk0]; omega
  | ⟨1, _⟩ => show win0_3.index t 1 * 1024 + 1 * (y 1).val = (k 1).val; rw [e31, hk1]; omega

/-- The output as one function of the argument arrays as the region finds them. -/
abbrev Garr (c : Dev nD) : S1024x4096.Idx → EReal :=
  G (V m c main_arg0) (V m c main_arg1) (V m c main_arg2) (V m c main_arg3)

/-- What point `t` writes back is block `t` of `Garr`. -/
theorem flushed_eq (c : Dev nD) (t : Fin cfg0.N) :
    (dats m 0 c).flushed 4 t = ((cfg0.win 4).blk t).view.read (Elt Ideal) (Garr m c) := by
  rw [Value.flushed4]
  unfold out0_4
  rw [View.canon_unit_zero hz]
  simp only [View.ld_unit_zero (S := S1024x1024) hz, View.ld_unit_zero (S := S512x1024) hz]
  obtain ⟨-, -, -, -, -, -, -, -, e40, e41⟩ := idx_facts t
  funext j
  show k0_pay1 (iblk m c 0 t) (iblk m c 1 t) (iblk m c 2 t) (iblk m c 3 t) j = Garr m c (((cfg0.win 4).blk t).view.emb j)
  have r0 : ((((cfg0.win 4).blk t).view.emb j) 0).val = (j 0).val := by
    show win0_4.index t 0 * 1024 + 1 * (j 0).val = (j 0).val; rw [e40]; omega
  have r1 : ((((cfg0.win 4).blk t).view.emb j) 1).val = 512 * t.val + (j 1).val := by
    show win0_4.index t 1 * 512 + 1 * (j 1).val = 512 * t.val + (j 1).val; rw [e41]; omega
  refine tile_apply (iblk m c 0 t) (iblk m c 1 t) (iblk m c 2 t) (iblk m c 3 t)
    (V m c main_arg0) (V m c main_arg1) (V m c main_arg2) (V m c main_arg3) j (((cfg0.win 4).blk t).view.emb j)
    (fun k => ?_) (fun k => ?_) (fun k => ?_) (fun k => ?_)
  · exact iblk0_apply m c t _ _ r0 rfl
  · exact iblk1_apply m c t _ _ r1 rfl
  · exact iblk2_apply m c t _ _ r1 rfl
  · exact iblk3_apply m c t _ _ r1 rfl

/-- Every output index lies in the block of the point `column / 512`. -/
theorem cover (i : S1024x4096.Idx) :
    ∃ t : Fin cfg0.N, (cfg0.win 4).flush t = true ∧ i ∈ ((cfg0.win 4).blk t).view.set := by
  have hi0 : (i 0).val < 1024 := (i 0).isLt
  have hi1 : (i 1).val < 4096 := (i 1).isLt
  obtain ⟨t, ht⟩ : ∃ t : Fin cfg0.N, t.val = (i 1).val / 512 :=
    ⟨⟨(i 1).val / 512, by rw [show cfg0.N = 8 from N_0]; omega⟩, rfl⟩
  obtain ⟨-, -, -, -, -, -, -, -, e40, e41⟩ := idx_facts t
  refine ⟨t, flush0_4 t, ?_⟩
  show i ∈ ((View.whole main_v0).slice (win0_4.rect t)).set
  rw [View.set_slice_whole, Rect.mem_set_unit]
  intro a
  match a with
  | ⟨0, _⟩ =>
    show win0_4.index t 0 * 1024 ≤ (i 0).val ∧ (i 0).val < win0_4.index t 0 * 1024 + 1024
    rw [e40]; omega
  | ⟨1, _⟩ =>
    show win0_4.index t 1 * 512 ≤ (i 1).val ∧ (i 1).val < win0_4.index t 1 * 512 + 512
    rw [e41, ht]; omega

/-- The output array after the run is `G` of the argument arrays. -/
theorem final (c : Dev nD) :
    (dats m 0 c).arrAt 4 cfg0.N
      = G (m ((c : Thread nD τ).loc main_arg0)) (m ((c : Thread nD τ).loc main_arg1))
          (m ((c : Thread nD τ).loc main_arg2)) (m ((c : Thread nD τ).loc main_arg3)) :=
  (dats m 0 c).arrAt_eq_of_cover 4 (Garr m c) (fun t _ => flushed_eq m c t) cover

/-- The kernel's run, read: the result array at `G` of the arguments, the arguments unchanged. -/
theorem run : θ_run defs (onTc (τ := τ) (main (F := Ideal))) ⟨m, fun _ => 0, ρ⟩ fun r => ∀ c : Dev nD,
      r.2.mem ((c : Thread nD τ).loc main_v0)
        = G (m ((c : Thread nD τ).loc main_arg0)) (m ((c : Thread nD τ).loc main_arg1))
            (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Tiles

end
-- ==== Proof.RefIsG.lean ====
/-
  The reference computes `Fgn.G`.

  Read one element at a time, the reference's result at `(b, o)` is its linear part `<x_b, w_o> + (-(0 + <w_o, c_o>))` times the
  exponential of minus `(<x_b², s_o²> - 2 <x_b, c_o s_o²>) + (0 + <c_o², s_o²>)`: each matrix product is against a transposed
  array, so its right operand at `(k, o)` is the untransposed one at `(o, k)`, and each bias is a per-`o` value repeated down
  the rows.  The two sums start from the zero word, which is the extended real `0`; with `0 + a = a` this is `Fgn.cell` of row
  `b` of `x` and rows `o` of the other three arrays.
-/
import proofs.«146211_j47622597378049_2_alg».proof.Proof.Gen.ReferenceIdeal.Read
import proofs.«146211_j47622597378049_2_alg».proof.Proof.Cell

noncomputable section

namespace Cert.ReferenceIdeal.RefValue

open Cert.ReferenceIdeal Cert.ReferenceIdeal.Read Idealize.ShloMosaic Idealize.ShloMosaic.ValueIdx Cert.Fgn

variable (b : Fin 1024) (o : Fin 4096) (k : Fin 1024)

/-! The composed index functions of the read-at-an-index lemmas, at `(b, o)` and contraction index `k`. -/

theorem lhs4 : lidx_main_v4 (ix2 b o) k = ix2 b k :=
  funext fun a => Fin.ext (by match a with | ⟨0, _⟩ => rfl | ⟨1, _⟩ => rfl)
theorem rhs4 : idx_main_v3 (ridx_main_v4 (ix2 b o) k) = ix2 o k :=
  funext fun a => Fin.ext (by match a with | ⟨0, _⟩ => rfl | ⟨1, _⟩ => rfl)
theorem row1 : idx_main_v1 (idx_main_v5 (idx_main_v6 (ix2 b o))) k = ix2 o k :=
  funext fun a => Fin.ext (by match a with | ⟨0, _⟩ => rfl | ⟨1, _⟩ => rfl)
theorem lhs11 : lidx_main_v11 (ix2 b o) k = ix2 b k :=
  funext fun a => Fin.ext (by match a with | ⟨0, _⟩ => rfl | ⟨1, _⟩ => rfl)
theorem rhs11 : idx_main_v10 (ridx_main_v11 (ix2 b o) k) = ix2 o k :=
  funext fun a => Fin.ext (by match a with | ⟨0, _⟩ => rfl | ⟨1, _⟩ => rfl)
theorem lhs14 : lidx_main_v14 (ix2 b o) k = ix2 b k :=
  funext fun a => Fin.ext (by match a with | ⟨0, _⟩ => rfl | ⟨1, _⟩ => rfl)
theorem rhs14 : idx_main_v13 (ridx_main_v14 (ix2 b o) k) = ix2 o k :=
  funext fun a => Fin.ext (by match a with | ⟨0, _⟩ => rfl | ⟨1, _⟩ => rfl)
theorem row20 : idx_main_v20 (idx_main_v21 (idx_main_v22 (ix2 b o))) k = ix2 o k :=
  funext fun a => Fin.ext (by match a with | ⟨0, _⟩ => rfl | ⟨1, _⟩ => rfl)

/-- The reference's last stage is `G` of the argument arrays. -/
theorem ref_is_G (x0 : (⟨S1024x1024, .f32⟩ : BufTy).Contents (Elt Ideal)) (x1 x2 x3 : (⟨S4096x1024, .f32⟩ : BufTy).Contents (Elt Ideal)) :
    val_main_v26 (F := Ideal) x0 x1 x2 x3 = G x0 x1 x2 x3 := by
  funext i
  obtain ⟨b, o, rfl⟩ : ∃ (b : Fin 1024) (o : Fin 4096), i = ix2 b o := ⟨i 0, i 1, eq_ix2 i⟩
  rw [G_apply, val_main_v26_apply, val_main_v7_apply, val_main_v4_apply, val_main_v6_apply, val_main_v5_apply, val_main_v2_apply,
    val_main_v1_apply, val_main_v25_apply, val_main_v24_apply, val_main_v23_apply, val_main_v17_apply, val_main_v11_apply,
    val_main_v16_apply, val_main_v15_apply, val_main_cst_0_apply, val_main_v14_apply, val_main_v22_apply, val_main_v21_apply,
    val_main_v20_apply, val_main_cst_apply, val_main_cst_1_apply]
  simp only [val_main_v3_apply, val_main_v0_apply, val_main_v9_apply, val_main_v10_apply, val_main_v8_apply, val_main_v13_apply,
    val_main_v12_apply, val_main_v19_apply, val_main_v18_apply, lhs4, rhs4, row1, lhs11, rhs11, lhs14, rhs14, row20,
    Ideal.mulf_def, Ideal.addf_def, Ideal.subf_def, Ideal.hostNegf_def, Ideal.negf_def, Ideal.hostUnary_exp_def, Ideal.ofBits_def,
    Ideal.ofBits_zero_f32, zero_add]
  rfl

end Cert.ReferenceIdeal.RefValue

end
-- ==== Proof.lean ====
/-
  The layer `(x W^T - <w_o, c_o>) * exp(-g)`, with `g_bo = sum_j (x_bj - c_oj)^2 s_oj^2` expanded into three inner products,
  computed by a kernel over eight tiles of 512 output features against the same formula written with whole-array operations.

  On the extended reals the two programs are one function of the arguments, operation for operation: a change of float format is
  the identity, a tile's matrix product into a zero accumulator and the whole-array product are the same sums over the
  contracted axis, a row sum is the same sum started from zero, and the kernel's `0 - a` is the reference's `-a`.  No law that
  needs finite values is used, so the precondition is never opened.

  `Proof/Cell.lean` states one output element as a function `cell` of the four rows it depends on, and the whole output `G`;
  `Proof/BodyAt.lean` reads the tile body at one element as `cell` of the tile's rows; `Proof/KernelValue.lean` places the
  tiles in the arrays and reads the kernel's run as `G` of the arguments; `Proof/RefIsG.lean` reads the reference's last
  stage as `G`.  The three frames are the generated ones (the reference's is its generated run with the result dropped), and
  the idealization rewrote nothing, so `preserves` is trivial.
-/
import proofs.«146211_j47622597378049_2_alg».proof.Defs
import proofs.«146211_j47622597378049_2_alg».proof.Proof.Gen.Kernel
import proofs.«146211_j47622597378049_2_alg».proof.Proof.Gen.Kernel.Skeleton
import proofs.«146211_j47622597378049_2_alg».proof.Proof.Gen.Kernel.Launch
import proofs.«146211_j47622597378049_2_alg».proof.Proof.Gen.Kernel.Points
import proofs.«146211_j47622597378049_2_alg».proof.Proof.Gen.Kernel.Frame
import proofs.«146211_j47622597378049_2_alg».proof.Proof.Gen.KernelIdeal
import proofs.«146211_j47622597378049_2_alg».proof.Proof.Gen.KernelIdeal.Skeleton
import proofs.«146211_j47622597378049_2_alg».proof.Proof.Gen.KernelIdeal.Launch
import proofs.«146211_j47622597378049_2_alg».proof.Proof.Gen.KernelIdeal.Points
import proofs.«146211_j47622597378049_2_alg».proof.Proof.Gen.KernelIdeal.Frame
import proofs.«146211_j47622597378049_2_alg».proof.Proof.Gen.ReferenceIdeal
import proofs.«146211_j47622597378049_2_alg».proof.Proof.Gen.KernelIdeal.Value
import proofs.«146211_j47622597378049_2_alg».proof.Proof.Gen.ReferenceIdeal.Run
import proofs.«146211_j47622597378049_2_alg».proof.Proof.Gen.ReferenceIdeal.Read
import proofs.«146211_j47622597378049_2_alg».proof.Proof.Gen.Pre_finite_inputs
import proofs.«146211_j47622597378049_2_alg».proof.Proof.KernelValue
import proofs.«146211_j47622597378049_2_alg».proof.Proof.RefIsG
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both runs end with the result array at `G` of the argument arrays, and the arguments agree. -/
theorem algebraic : Cert.algebraic_KernelIdeal_ReferenceIdeal := by
  intro m ρ m' ρ' _ hagree
  refine ⟨_, Cert.KernelIdeal.Tiles.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v26_eq, Cert.ReferenceIdeal.RefValue.ref_is_G,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
